-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v49_1)) (v1 : (c : Dev Cert.KernelIdeal.nD) → Buf (Elt Ideal) ((c.tc : Thread Cert.KernelIdeal.nD Cert.KernelIdeal.τ).loc Cert.KernelIdeal.main_v49_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_1) = v0 c
          ∧ r.2.mem ((c.tc : Thread Cert.KernelIdeal.nD Cert.KernelIdeal.τ).loc Cert.KernelIdeal.main_v49_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg12 : FVec F S10x64 .f32) (main_arg13 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S10x64 .f32 := Host.absf main_arg12
  let main_cst_20 : FVec F S_ .f32 := constant S_ .f32 0x7F800000#32
  let main_v55 : FVec F S10x64 .f32 := broadcastInDim S10x64 ![] bcast_S_S10x64 main_cst_20
  let main_v56 : IVec S10x64 1 := cmpf .olt main_v54 main_v55
  let main_c_21 : IVec S_ 1 := constantI S_ 1 1#1
  let main_v57 : IVec S_ 1 := (fun x v => Host.reduce IntOp.andi x v reducesTo_S10x64_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg8 : FVec F S128x256 .f32) (main_arg9 : FVec F S128 .f32) (main_arg10 : FVec F S64x128 .f32) (main_arg11 : FVec F S64 .f32) (main_arg12 : FVec F S10x64 .f32) (main_arg13 : FVec F S10 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S256x256 .f32) (main_arg6 : FVec F S256 .f32) (main_arg7 : FVec F S256x256 .f32) (main_arg8 : FVec F S128x256 .f32) (main_arg9 : FVec F S128 .f32) (main_arg10 : FVec F S64x128 .f32) (main_arg11 : FVec F S64 .f32) (main_arg12 : FVec F S10x64 .f32) (main_arg13 : FVec F S10 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S128x256 .f32) (main_arg9 : FVec F S128 .f32) (main_arg10 : FVec F S64x128 .f32) (main_arg11 : FVec F S64 .f32) (main_arg12 : FVec F S10x64 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S128x64 : Shape := ⟨2, ![128, 64]⟩
abbrev S64x10 : Shape := ⟨2, ![64, 10]⟩
abbrev S1x128 : Shape := ⟨2, ![1, 128]⟩
abbrev S1x64 : Shape := ⟨2, ![1, 64]⟩
abbrev S1x10 : Shape := ⟨2, ![1, 10]⟩
abbrev S50000x10 : Shape := ⟨2, ![50000, 10]⟩
abbrev S2000x10 : Shape := ⟨2, ![2000, 10]⟩
abbrev S2000x64 : Shape := ⟨2, ![2000, 64]⟩

abbrev nBuf : Space → Nat
  | .hbm => 75
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S10x64, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S128x256, .f32⟩
  | .hbm, ⟨32, _⟩ => ⟨S128x256, .f32⟩
  | .hbm, ⟨33, _⟩ => ⟨S50000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x256, .f32⟩
  | .hbm, ⟨49, _⟩ => ⟨S50000x256, .bf16⟩
  | .hbm, ⟨50, _⟩ => ⟨S256x256, .f32⟩
  | .hbm, ⟨51, _⟩ => ⟨S256x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .bf16⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S256x128, .f32⟩
  | .hbm, ⟨67, _⟩ => ⟨S128x64, .f32⟩
  | .hbm, ⟨68, _⟩ => ⟨S64x10, .f32⟩
  | .hbm, ⟨69, _⟩ => ⟨S1x256, .f32⟩
  | .hbm, ⟨70, _⟩ => ⟨S1x128, .f32⟩
  | .hbm, ⟨71, _⟩ => ⟨S1x64, .f32⟩
  | .hbm, ⟨72, _⟩ => ⟨S1x10, .f32⟩
  | .hbm, ⟨73, _⟩ => ⟨S50000x256, .f32⟩
  | .hbm, ⟨74, _⟩ => ⟨S50000x10, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S64x10, .f32⟩
  | .local _ .vmem, ⟨25, _⟩ => ⟨S1x10, .f32⟩
  | .local _ .vmem, ⟨26, _⟩ => ⟨S2000x256, .f32⟩
  | .local _ .vmem, ⟨27, _⟩ => ⟨S2000x256, .f32⟩
  | .local _ .vmem, ⟨28, _⟩ => ⟨S2000x10, .f32⟩
  | .local _ .vmem, ⟨29, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49_0 : Ref sig .tc := ⟨.hbm, 73, rfl⟩
abbrev main_v49_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem12_1 : DmaSem sig := 27
abbrev cc1_sem13_0 : DmaSem sig := 28
abbrev cc1_sem13_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x10 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2000x10 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  transposes_S256x128_S128x256_1_0 : S256x128.Transposes [1, 0] S128x256
  bitsLt_bf16_f32 : FTy.bits .bf16 < FTy.bits .f32
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  transposes_S256x256_S256x256_1_0 : S256x256.Transposes [1, 0] S256x256
  bcast_S_S50000x256 : S_.BroadcastsInDim S50000x256 (![] : Fin 0 → Fin S50000x256.rank)
  transposes_S128x256_S256x128_1_0 : S128x256.Transposes [1, 0] S256x128
  transposes_S64x128_S128x64_1_0 : S64x128.Transposes [1, 0] S128x64
  transposes_S10x64_S64x10_1_0 : S10x64.Transposes [1, 0] S64x10
  shapeCasts_S128_S1x128 : S128.ShapeCasts S1x128
  shapeCasts_S64_S1x64 : S64.ShapeCasts S1x64
  shapeCasts_S10_S1x10 : S10.ShapeCasts S1x10
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x10_S2000x10_1_0_0_1_n_n_wf : DotDims.WF S2000x64 S64x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x10.size a ≤ S64x10.size a
  hwx1_10 : ∀ i : grid1.Coords, EltTy.bits .f32 = 32 ∨ (Rect.block (s := S64x10) S64x10.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x10.size a ≤ S1x10.size a
  hwx1_11 : ∀ i : grid1.Coords, EltTy.bits .f32 = 32 ∨ (Rect.block (s := S1x10) S1x10.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x256.size a ≤ S50000x256.size a
  hwx1_12 : ∀ i : grid1.Coords, EltTy.bits .f32 = 32 ∨ (Rect.block (s := S50000x256) S2000x256.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x10.size a ≤ S50000x10.size a
  hwx1_13 : ∀ i : grid1.Coords, EltTy.bits .f32 = 32 ∨ (Rect.block (s := S50000x10) S2000x10.size (cc1_transform_13 i) (hinb1_13 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S64x10.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v48) S1x10.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v49_0) S2000x256.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v49_1) S2000x10.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩
abbrev S64x10 : Shape := ⟨2, ![64, 10]⟩
abbrev S50000x10 : Shape := ⟨2, ![50000, 10]⟩
abbrev S1x10 : Shape := ⟨2, ![1, 10]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S10x64, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S128x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S128x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x256, .f32⟩
  | .hbm, ⟨78, _⟩ => ⟨S50000x256, .f32⟩
  | .hbm, ⟨79, _⟩ => ⟨S256x256, .f32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S256x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S50000x256, .f32⟩
  | .hbm, ⟨89, _⟩ => ⟨S50000x256, .f32⟩
  | .hbm, ⟨90, _⟩ => ⟨S256x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S128x64, .f32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S50000x64, .f32⟩
  | .hbm, ⟨103, _⟩ => ⟨S_, .f32⟩
  | .hbm, ⟨104, _⟩ => ⟨S50000x64, .f32⟩
  | .hbm, ⟨105, _⟩ => ⟨S50000x64, .f32⟩
  | .hbm, ⟨106, _⟩ => ⟨S64x10, .f32⟩
  | .hbm, ⟨107, _⟩ => ⟨S50000x10, .f32⟩
  | .hbm, ⟨108, _⟩ => ⟨S1x10, .f32⟩
  | .hbm, ⟨109, _⟩ => ⟨S50000x10, .f32⟩
  | .hbm, ⟨110, _⟩ => ⟨S50000x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call3_cst : Ref sig .tc := ⟨.hbm, 103, rfl⟩
abbrev main_call3_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S10x64_S64x10_1_0 : S10x64.Transposes [1, 0] S64x10
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x10_S50000x10_1_0_0_1_n_n_wf : DotDims.WF S50000x64 S64x10 S50000x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.KernelRun.lean ====
/-
  The idealized kernel's run with every buffer of the last boundary named.

  The generated frame certificate runs @main as four segments — the host operations before the first kernel, the
  first kernel's grid, the host operations between, the second kernel's grid — and ends with every unscoped buffer of a
  core at the last boundary's contents `W4`.  Its stated conclusion keeps only the argument arrays; here the same run is
  read at every unscoped buffer, so that the two result arrays can be read too: each is what the second grid's
  write-backs leave in its output window's array.
-/
import proofs.«127710_j26336739459481_2_alg».proof.Proof.KernelIdealFrameP

set_option maxRecDepth 16384

noncomputable section

namespace Cert.KernelIdeal.RunAll

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The first result (the decoder's output) is what the second grid leaves in its last output window's array. -/
theorem out_q (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_v49_1) = (dat1 (V3 m ρ) c).arrAt 13 cfg1.N :=
  (h c _ (mem_uc main_v49_1 (by decide))).trans (W4_arr m ρ c 13)

/-- The second result (the second layer's features) is what the second grid leaves in its first output window's array. -/
theorem out_h (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_v49_0) = (dat1 (V3 m ρ) c).arrAt 12 cfg1.N :=
  (h c _ (mem_uc main_v49_0 (by decide))).trans (W4_arr m ρ c 12)

theorem kept_arg0 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg0) = m ((c : Thread nD τ).loc main_arg0) :=
  (h c _ (mem_uc main_arg0 (by decide))).trans (W4_main_arg0 m ρ c)

theorem kept_arg1 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg1) = m ((c : Thread nD τ).loc main_arg1) :=
  (h c _ (mem_uc main_arg1 (by decide))).trans (W4_main_arg1 m ρ c)

theorem kept_arg2 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg2) = m ((c : Thread nD τ).loc main_arg2) :=
  (h c _ (mem_uc main_arg2 (by decide))).trans (W4_main_arg2 m ρ c)

theorem kept_arg3 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg3) = m ((c : Thread nD τ).loc main_arg3) :=
  (h c _ (mem_uc main_arg3 (by decide))).trans (W4_main_arg3 m ρ c)

theorem kept_arg4 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg4) = m ((c : Thread nD τ).loc main_arg4) :=
  (h c _ (mem_uc main_arg4 (by decide))).trans (W4_main_arg4 m ρ c)

theorem kept_arg5 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg5) = m ((c : Thread nD τ).loc main_arg5) :=
  (h c _ (mem_uc main_arg5 (by decide))).trans (W4_main_arg5 m ρ c)

theorem kept_arg6 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg6) = m ((c : Thread nD τ).loc main_arg6) :=
  (h c _ (mem_uc main_arg6 (by decide))).trans (W4_main_arg6 m ρ c)

theorem kept_arg7 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg7) = m ((c : Thread nD τ).loc main_arg7) :=
  (h c _ (mem_uc main_arg7 (by decide))).trans (W4_main_arg7 m ρ c)

theorem kept_arg8 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg8) = m ((c : Thread nD τ).loc main_arg8) :=
  (h c _ (mem_uc main_arg8 (by decide))).trans (W4_main_arg8 m ρ c)

theorem kept_arg9 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg9) = m ((c : Thread nD τ).loc main_arg9) :=
  (h c _ (mem_uc main_arg9 (by decide))).trans (W4_main_arg9 m ρ c)

theorem kept_arg10 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg10) = m ((c : Thread nD τ).loc main_arg10) :=
  (h c _ (mem_uc main_arg10 (by decide))).trans (W4_main_arg10 m ρ c)

theorem kept_arg11 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg11) = m ((c : Thread nD τ).loc main_arg11) :=
  (h c _ (mem_uc main_arg11 (by decide))).trans (W4_main_arg11 m ρ c)

theorem kept_arg12 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg12) = m ((c : Thread nD τ).loc main_arg12) :=
  (h c _ (mem_uc main_arg12 (by decide))).trans (W4_main_arg12 m ρ c)

theorem kept_arg13 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg13) = m ((c : Thread nD τ).loc main_arg13) :=
  (h c _ (mem_uc main_arg13 (by decide))).trans (W4_main_arg13 m ρ c)

end Cert.KernelIdeal.RunAll

end
-- ==== Proof.RowLaw.lean ====
/-
  One output entry of a mean-aggregating graph layer, in the two arrangements the programs use, and the law that joins them.

  Row `r`, output feature `j`: with `a k` the summed neighbour features, `x k` the node's own features, `c` the clamped
  neighbour count, `wl`, `wr` the two weight columns, `b` the bias and `z` the floor of the rectifier, one program forms
  `max ((Σ (a k · (1/c)) · wl k + Σ x k · wr k) + b) z` and the other `max ((Σ (a k / c) · wl k + b) + Σ x k · wr k) z`.
  On the extended reals the quotient by a NONZERO `c` is the product with `c⁻¹`, and `1 / c` is `c⁻¹`, so the two agree
  term by term; the additions only change their grouping. Nothing here needs finiteness.
-/
import Idealize.ShloMosaic.PureOps.Ideal
import Idealize.ShloMosaic.Lib.IdealHost

noncomputable section

namespace Cert.Sage

open Idealize.ShloMosaic

/-- The entry with the mean taken by multiplying with a reciprocal `inv`, bias added last. -/
def entryMul {K : ℕ} (a x wl wr : Fin K → EReal) (inv b z : EReal) : EReal :=
  max (((∑ k, (a k * inv) * wl k) + ∑ k, x k * wr k) + b) z

/-- The entry with the mean taken by dividing by the count `c`, the root term added last. -/
def entryDiv {K : ℕ} (a x wl wr : Fin K → EReal) (c b z : EReal) : EReal :=
  max (((∑ k, Ideal.div (a k) c * wl k) + b) + ∑ k, x k * wr k) z

/-- For a nonzero count the two arrangements are one extended real. -/
theorem entryMul_eq_entryDiv {K : ℕ} (a x wl wr : Fin K → EReal) (o c b z : EReal) (ho : o = 1) (hc : c ≠ 0) :
    entryMul a x wl wr (Ideal.div o c) b z = entryDiv a x wl wr c b z := by
  unfold entryMul entryDiv
  have h1 : Ideal.div o c = c⁻¹ := by rw [ho, Ideal.div, if_neg hc, one_mul]
  have h2 : ∀ k, Ideal.div (a k) c = a k * c⁻¹ := fun k => by rw [Ideal.div, if_neg hc]
  simp only [h1, h2]
  rw [add_right_comm]

/-- A count clamped below by the float `1.0` is not zero. -/
theorem clamp_ne_zero (y : EReal) : max y (Ideal.ofBits .f32 0x3F800000#32) ≠ 0 := by
  rw [Ideal.ofBits_one_f32]
  intro h
  have h1 : (1 : EReal) ≤ max y 1 := le_max_right _ _
  rw [h] at h1
  exact absurd h1 (by norm_num)

/-- A dense layer's entry: the row against a weight column, plus the bias. -/
def dense {K : ℕ} (h w : Fin K → EReal) (b : EReal) : EReal := (∑ k, h k * w k) + b

end Cert.Sage

end
-- ==== Proof.LayerSpec.lean ====
/-
  The layers as functions of whole arrays, entry by entry.

  `layerMul` is a graph layer's output array with the mean taken by a reciprocal column (the kernel's arrangement):
  entry `(r, j)` reads row `r` of the neighbour sums and of the node features, row `r` of the reciprocal column, column
  `j` of the two (already transposed) weight matrices and entry `j` of the bias row.  `decode` is the three dense
  layers after it, the first two rectified.  A block of either, read through index embeddings that keep the row and
  column of the output's embedding, is the same expression of the blocks (`layerMul_block`): this is what lets a grid
  point's stored block be recognised as a block of the whole-array function.
-/
import Idealize.ShloMosaic.Lib.ValueIdx
import proofs.«127710_j26336739459481_2_alg».proof.Proof.RowLaw

noncomputable section

namespace Cert.Sage

open Idealize.ShloMosaic Idealize.ShloMosaic.ValueIdx

/-- A two-axis array of extended reals. -/
abbrev Arr (a b : ℕ) := (⟨2, ![a, b]⟩ : Shape).Idx → EReal

/-- The row coordinate of an index. -/
def r0 {a b : ℕ} (i : (⟨2, ![a, b]⟩ : Shape).Idx) : Fin a := ⟨(i 0).val, (i 0).isLt⟩
/-- The column coordinate of an index. -/
def c1 {a b : ℕ} (i : (⟨2, ![a, b]⟩ : Shape).Idx) : Fin b := ⟨(i 1).val, (i 1).isLt⟩

theorem r0_ix2 {a b : ℕ} (p : Fin a) (q : Fin b) : r0 (ix2 p q) = p := rfl
theorem c1_ix2 {a b : ℕ} (p : Fin a) (q : Fin b) : c1 (ix2 p q) = q := rfl

/-- The layer's output array, the mean by a reciprocal column. -/
def layerMul {n K J : ℕ} (A : Arr n K) (I : Arr n 1) (X : Arr n K) (Wl Wr : Arr K J) (B : Arr 1 J) (z : EReal) : Arr n J :=
  fun i => entryMul (fun k => A (ix2 (r0 i) k)) (fun k => X (ix2 (r0 i) k)) (fun k => Wl (ix2 k (c1 i))) (fun k => Wr (ix2 k (c1 i)))
    (I (ix2 (r0 i) 0)) (B (ix2 0 (c1 i))) z

/-- The three dense layers over an array of hidden features, the first two rectified at `z`. -/
def decode {n K1 K2 K3 J : ℕ} (H : Arr n K1) (W1 : Arr K1 K2) (B1 : Arr 1 K2) (W2 : Arr K2 K3) (B2 : Arr 1 K3) (W3 : Arr K3 J) (B3 : Arr 1 J)
    (z : EReal) : Arr n J :=
  fun i => dense (fun k3 => max (dense (fun k2 => max (dense (fun k1 => H (ix2 (r0 i) k1)) (fun k1 => W1 (ix2 k1 k2)) (B1 (ix2 0 k2))) z)
      (fun k2 => W2 (ix2 k2 k3)) (B2 (ix2 0 k3))) z) (fun k3 => W3 (ix2 k3 (c1 i))) (B3 (ix2 0 (c1 i)))

/-- A block of `layerMul`: when each operand's block embedding keeps the output embedding's row (or column), the
    entry formed from the blocks at `(p, q)` is the whole-array function at the embedded index. -/
theorem layerMul_block {n K J bn : ℕ} (A : Arr n K) (I : Arr n 1) (X : Arr n K) (Wl Wr : Arr K J) (B : Arr 1 J) (z : EReal)
    (eA eX : (⟨2, ![bn, K]⟩ : Shape).Idx → (⟨2, ![n, K]⟩ : Shape).Idx) (eI : (⟨2, ![bn, 1]⟩ : Shape).Idx → (⟨2, ![n, 1]⟩ : Shape).Idx)
    (eWl eWr : (⟨2, ![K, J]⟩ : Shape).Idx → (⟨2, ![K, J]⟩ : Shape).Idx) (eB : (⟨2, ![1, J]⟩ : Shape).Idx → (⟨2, ![1, J]⟩ : Shape).Idx)
    (eO : (⟨2, ![bn, J]⟩ : Shape).Idx → (⟨2, ![n, J]⟩ : Shape).Idx) (p : Fin bn) (q : Fin J)
    (hA : ∀ k, eA (ix2 p k) = ix2 (r0 (eO (ix2 p q))) k) (hX : ∀ k, eX (ix2 p k) = ix2 (r0 (eO (ix2 p q))) k)
    (hI : eI (ix2 p 0) = ix2 (r0 (eO (ix2 p q))) 0)
    (hWl : ∀ k, eWl (ix2 k q) = ix2 k (c1 (eO (ix2 p q)))) (hWr : ∀ k, eWr (ix2 k q) = ix2 k (c1 (eO (ix2 p q))))
    (hB : eB (ix2 0 q) = ix2 0 (c1 (eO (ix2 p q)))) :
    entryMul (fun k => A (eA (ix2 p k))) (fun k => X (eX (ix2 p k))) (fun k => Wl (eWl (ix2 k q))) (fun k => Wr (eWr (ix2 k q)))
      (I (eI (ix2 p 0))) (B (eB (ix2 0 q))) z = layerMul A I X Wl Wr B z (eO (ix2 p q)) := by
  unfold layerMul
  simp only [hA, hX, hI, hWl, hWr, hB]

/-- An index is its two coordinates. -/
theorem ix2_r0_c1 {a b : ℕ} (j : (⟨2, ![a, b]⟩ : Shape).Idx) : ix2 (r0 j) (c1 j) = j :=
  funext fun ax => Fin.ext (by
    match ax with
    | ⟨0, _⟩ => rfl
    | ⟨1, _⟩ => rfl)

/-- `layerMul_block` at a general block index `j`. -/
theorem layerMul_block_at {n K J bn : ℕ} (A : Arr n K) (I : Arr n 1) (X : Arr n K) (Wl Wr : Arr K J) (B : Arr 1 J) (z : EReal)
    (eA eX : (⟨2, ![bn, K]⟩ : Shape).Idx → (⟨2, ![n, K]⟩ : Shape).Idx) (eI : (⟨2, ![bn, 1]⟩ : Shape).Idx → (⟨2, ![n, 1]⟩ : Shape).Idx)
    (eWl eWr : (⟨2, ![K, J]⟩ : Shape).Idx → (⟨2, ![K, J]⟩ : Shape).Idx) (eB : (⟨2, ![1, J]⟩ : Shape).Idx → (⟨2, ![1, J]⟩ : Shape).Idx)
    (eO : (⟨2, ![bn, J]⟩ : Shape).Idx → (⟨2, ![n, J]⟩ : Shape).Idx) (j : (⟨2, ![bn, J]⟩ : Shape).Idx)
    (hA : ∀ k, eA (ix2 (r0 j) k) = ix2 (r0 (eO j)) k) (hX : ∀ k, eX (ix2 (r0 j) k) = ix2 (r0 (eO j)) k)
    (hI : eI (ix2 (r0 j) 0) = ix2 (r0 (eO j)) 0)
    (hWl : ∀ k, eWl (ix2 k (c1 j)) = ix2 k (c1 (eO j))) (hWr : ∀ k, eWr (ix2 k (c1 j)) = ix2 k (c1 (eO j)))
    (hB : eB (ix2 0 (c1 j)) = ix2 0 (c1 (eO j))) :
    entryMul (fun k => A (eA (ix2 (r0 j) k))) (fun k => X (eX (ix2 (r0 j) k))) (fun k => Wl (eWl (ix2 k (c1 j)))) (fun k => Wr (eWr (ix2 k (c1 j))))
      (I (eI (ix2 (r0 j) 0))) (B (eB (ix2 0 (c1 j)))) z = layerMul A I X Wl Wr B z (eO j) := by
  unfold layerMul
  simp only [hA, hX, hI, hWl, hWr, hB]

/-- A block of `decode`: the dense layers formed from a block's hidden rows `hb` and the weight and bias blocks are the
    whole-array function at the embedded index, when the hidden rows are rows of `H` and the embeddings keep rows and columns. -/
theorem decode_block_at {n K1 K2 K3 J bn : ℕ} (H : Arr n K1) (W1 : Arr K1 K2) (B1 : Arr 1 K2) (W2 : Arr K2 K3) (B2 : Arr 1 K3)
    (W3 : Arr K3 J) (B3 : Arr 1 J) (z : EReal) (hb : Fin bn → Fin K1 → EReal)
    (eW1 : (⟨2, ![K1, K2]⟩ : Shape).Idx → (⟨2, ![K1, K2]⟩ : Shape).Idx) (eB1 : (⟨2, ![1, K2]⟩ : Shape).Idx → (⟨2, ![1, K2]⟩ : Shape).Idx)
    (eW2 : (⟨2, ![K2, K3]⟩ : Shape).Idx → (⟨2, ![K2, K3]⟩ : Shape).Idx) (eB2 : (⟨2, ![1, K3]⟩ : Shape).Idx → (⟨2, ![1, K3]⟩ : Shape).Idx)
    (eW3 : (⟨2, ![K3, J]⟩ : Shape).Idx → (⟨2, ![K3, J]⟩ : Shape).Idx) (eB3 : (⟨2, ![1, J]⟩ : Shape).Idx → (⟨2, ![1, J]⟩ : Shape).Idx)
    (eO : (⟨2, ![bn, J]⟩ : Shape).Idx → (⟨2, ![n, J]⟩ : Shape).Idx) (j : (⟨2, ![bn, J]⟩ : Shape).Idx)
    (hH : ∀ k1, hb (r0 j) k1 = H (ix2 (r0 (eO j)) k1))
    (hW1 : ∀ k1 k2, eW1 (ix2 k1 k2) = ix2 k1 k2) (hB1 : ∀ k2, eB1 (ix2 0 k2) = ix2 0 k2)
    (hW2 : ∀ k2 k3, eW2 (ix2 k2 k3) = ix2 k2 k3) (hB2 : ∀ k3, eB2 (ix2 0 k3) = ix2 0 k3)
    (hW3 : ∀ k3, eW3 (ix2 k3 (c1 j)) = ix2 k3 (c1 (eO j))) (hB3 : eB3 (ix2 0 (c1 j)) = ix2 0 (c1 (eO j))) :
    dense (fun k3 => max (dense (fun k2 => max (dense (fun k1 => hb (r0 j) k1) (fun k1 => W1 (eW1 (ix2 k1 k2))) (B1 (eB1 (ix2 0 k2)))) z)
        (fun k2 => W2 (eW2 (ix2 k2 k3))) (B2 (eB2 (ix2 0 k3)))) z) (fun k3 => W3 (eW3 (ix2 k3 (c1 j)))) (B3 (eB3 (ix2 0 (c1 j))))
      = decode H W1 B1 W2 B2 W3 B3 z (eO j) := by
  unfold decode
  simp only [hH, hW1, hB1, hW2, hB2, hW3, hB3]

end Cert.Sage

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.DotFacts.lean ====
/-
  The kernel's five matrix products read at an entry.

  Each of the kernel's dimension records contracts the left operand's lane axis with the right operand's row axis, so
  into the zero accumulator the product's entry `(p, q)` is `Σ k, l (p, k) · r (k, q)` on the extended reals.
-/
import proofs.«127710_j26336739459481_2_alg».proof.Proof.Gen.KernelIdeal
import proofs.«127710_j26336739459481_2_alg».proof.Proof.LibPlainDot

noncomputable section

namespace Cert.KernelIdeal.Pay

open Cert.KernelIdeal Cert.KernelIdeal.Gen Idealize.ShloMosaic Idealize.ShloMosaic.ValueIdx

/-- The left operand's row coordinate is the output's row. -/
local macro "lhs_row" D:ident : tactic => `(tactic| (
  intro i q
  unfold DotDims.lhsIdx
  rw [dif_neg (show ¬(0 : Fin 2) ∈ DotDims.lhsBatch $D by decide), dif_pos (show (0 : Fin 2) ∈ DotDims.lhsNonContracting $D by decide)]
  rfl))

/-- The right operand's column coordinate is the output's column. -/
local macro "rhs_col" D:ident : tactic => `(tactic| (
  intro i q
  unfold DotDims.rhsIdx
  rw [dif_neg (show ¬(1 : Fin 2) ∈ DotDims.rhsBatch $D by decide), dif_pos (show (1 : Fin 2) ∈ DotDims.rhsNonContracting $D by decide)]
  rfl))

theorem mm_128_256 (l : FVec Ideal S2000x128 .bf16) (r : FVec Ideal S128x256 .bf16) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) :=
  PlainDot.matmul_zero_apply dot_S2000x128_S128x256_S2000x256_1_0_0_1_n_n none rfl rfl
    (by lhs_row dot_S2000x128_S128x256_S2000x256_1_0_0_1_n_n)
    (fun i q => dot_S2000x128_S128x256_S2000x256_1_0_0_1_n_n.lhsIdx_val_of_single rfl i q)
    (fun i q => dot_S2000x128_S128x256_S2000x256_1_0_0_1_n_n.rhsIdx_val_of_single rfl i q)
    (by rhs_col dot_S2000x128_S128x256_S2000x256_1_0_0_1_n_n) l r p q

theorem mm_256_256 (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) :=
  PlainDot.matmul_zero_apply dot_S2000x256_S256x256_S2000x256_1_0_0_1_n_n none rfl rfl
    (by lhs_row dot_S2000x256_S256x256_S2000x256_1_0_0_1_n_n)
    (fun i q => dot_S2000x256_S256x256_S2000x256_1_0_0_1_n_n.lhsIdx_val_of_single rfl i q)
    (fun i q => dot_S2000x256_S256x256_S2000x256_1_0_0_1_n_n.rhsIdx_val_of_single rfl i q)
    (by rhs_col dot_S2000x256_S256x256_S2000x256_1_0_0_1_n_n) l r p q

theorem mm_256_128 (l : FVec Ideal S2000x256 .bf16) (r : FVec Ideal S256x128 .bf16) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) :=
  PlainDot.matmul_zero_apply dot_S2000x256_S256x128_S2000x128_1_0_0_1_n_n none rfl rfl
    (by lhs_row dot_S2000x256_S256x128_S2000x128_1_0_0_1_n_n)
    (fun i q => dot_S2000x256_S256x128_S2000x128_1_0_0_1_n_n.lhsIdx_val_of_single rfl i q)
    (fun i q => dot_S2000x256_S256x128_S2000x128_1_0_0_1_n_n.rhsIdx_val_of_single rfl i q)
    (by rhs_col dot_S2000x256_S256x128_S2000x128_1_0_0_1_n_n) l r p q

theorem mm_128_64 (l : FVec Ideal S2000x128 .bf16) (r : FVec Ideal S128x64 .bf16) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) :=
  PlainDot.matmul_zero_apply dot_S2000x128_S128x64_S2000x64_1_0_0_1_n_n none rfl rfl
    (by lhs_row dot_S2000x128_S128x64_S2000x64_1_0_0_1_n_n)
    (fun i q => dot_S2000x128_S128x64_S2000x64_1_0_0_1_n_n.lhsIdx_val_of_single rfl i q)
    (fun i q => dot_S2000x128_S128x64_S2000x64_1_0_0_1_n_n.rhsIdx_val_of_single rfl i q)
    (by rhs_col dot_S2000x128_S128x64_S2000x64_1_0_0_1_n_n) l r p q

theorem mm_64_10 (l : FVec Ideal S2000x64 .bf16) (r : FVec Ideal S64x10 .bf16) (p : Fin 2000) (q : Fin 10) :
    matmul dot_S2000x64_S64x10_S2000x10_1_0_0_1_n_n none l r (constant (F := Ideal) S2000x10 .f32 0x00000000#32) (ix2 p q)
      = ∑ k : Fin 64, l (ix2 p k) * r (ix2 k q) :=
  PlainDot.matmul_zero_apply dot_S2000x64_S64x10_S2000x10_1_0_0_1_n_n none rfl rfl
    (by lhs_row dot_S2000x64_S64x10_S2000x10_1_0_0_1_n_n)
    (fun i q => dot_S2000x64_S64x10_S2000x10_1_0_0_1_n_n.lhsIdx_val_of_single rfl i q)
    (fun i q => dot_S2000x64_S64x10_S2000x10_1_0_0_1_n_n.rhsIdx_val_of_single rfl i q)
    (by rhs_col dot_S2000x64_S64x10_S2000x10_1_0_0_1_n_n) l r p q

end Cert.KernelIdeal.Pay

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.Payload.lean ====
/-
  The kernels' arithmetic at an entry.

  Each kernel body stores one pure expression of its loaded blocks.  On the extended reals the changes of float format
  are the identity, a matrix product into the zero accumulator is a plain sum, the reciprocal column is spread over the
  lanes and the bias row over the rows; so the first kernel's stored entry `(p, q)` is the layer entry `entryMul` of row
  `p` of its row blocks and column `q` of its weight blocks, the second kernel's first store is the same with the wider
  feature row, and its second store is the three dense layers over that row.
-/
import proofs.«127710_j26336739459481_2_alg».proof.Proof.Gen.KernelIdeal.Skeleton
import proofs.«127710_j26336739459481_2_alg».proof.Proof.LayerSpec
import proofs.«127710_j26336739459481_2_alg».proof.Proof.DotFacts
import proofs.«127710_j26336739459481_2_alg».proof.Proof.LibKeepdims
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Sage

/-- The rectifier's floor: the float `0.0`. -/
abbrev zf : EReal := Ideal.ofBits .f32 0x00000000#32

/-- The first kernel's stored entry. -/
theorem pay0_apply (x0 : Vec Ideal S2000x128 .f32) (x1 : Vec Ideal S2000x1 .f32) (x2 : Vec Ideal S2000x128 .f32)
    (x3 x4 : Vec Ideal S128x256 .f32) (x5 : Vec Ideal S1x256 .f32) (p : Fin 2000) (q : Fin 256) :
    k0_pay1 x0 x1 x2 x3 x4 x5 (ix2 p q)
      = entryMul (fun k : Fin 128 => x0 (ix2 p k)) (fun k => x2 (ix2 p k)) (fun k => x3 (ix2 k q)) (fun k => x4 (ix2 k q))
          (x1 (ix2 p 0)) (x5 (ix2 0 q)) zf := by
  unfold k0_pay1 entryMul
  dsimp only
  rw [truncf_apply, maximumf_apply, addf_apply, addf_apply, mm_128_256, mm_128_256, broadcastTo_1b_ab_apply, broadcast_apply]
  simp only [truncf_apply, mulf_apply, shapeCast_self, Keepdims.broadcastTo_a1_ab_apply]
  rfl

/-- The same at a general index of the stored block. -/
theorem pay0_at (x0 : Vec Ideal S2000x128 .f32) (x1 : Vec Ideal S2000x1 .f32) (x2 : Vec Ideal S2000x128 .f32)
    (x3 x4 : Vec Ideal S128x256 .f32) (x5 : Vec Ideal S1x256 .f32) (j : S2000x256.Idx) :
    k0_pay1 x0 x1 x2 x3 x4 x5 j
      = entryMul (fun k : Fin 128 => x0 (ix2 (r0 j) k)) (fun k => x2 (ix2 (r0 j) k)) (fun k => x3 (ix2 k (c1 j))) (fun k => x4 (ix2 k (c1 j)))
          (x1 (ix2 (r0 j) 0)) (x5 (ix2 0 (c1 j))) zf :=
  (congrArg (k0_pay1 x0 x1 x2 x3 x4 x5) (ix2_r0_c1 j).symm).trans (pay0_apply x0 x1 x2 x3 x4 x5 (r0 j) (c1 j))

/-- The second kernel's first stored entry: the layer over the 256 hidden features. -/
theorem pay1h_apply (x0 : Vec Ideal S2000x256 .f32) (x1 : Vec Ideal S2000x1 .f32) (x2 : Vec Ideal S2000x256 .bf16)
    (x3 x4 : Vec Ideal S256x256 .f32) (x5 : Vec Ideal S1x256 .f32) (p : Fin 2000) (q : Fin 256) :
    k1_pay2 x0 x1 x2 x3 x4 x5 (ix2 p q)
      = entryMul (fun k : Fin 256 => x0 (ix2 p k)) (fun k => x2 (ix2 p k)) (fun k => x3 (ix2 k q)) (fun k => x4 (ix2 k q))
          (x1 (ix2 p 0)) (x5 (ix2 0 q)) zf := by
  unfold k1_pay2 entryMul
  dsimp only
  rw [maximumf_apply, addf_apply, addf_apply, mm_256_256, mm_256_256, broadcastTo_1b_ab_apply, broadcast_apply]
  simp only [truncf_apply, mulf_apply, shapeCast_self, Keepdims.broadcastTo_a1_ab_apply]
  rfl

theorem pay1h_at (x0 : Vec Ideal S2000x256 .f32) (x1 : Vec Ideal S2000x1 .f32) (x2 : Vec Ideal S2000x256 .bf16)
    (x3 x4 : Vec Ideal S256x256 .f32) (x5 : Vec Ideal S1x256 .f32) (j : S2000x256.Idx) :
    k1_pay2 x0 x1 x2 x3 x4 x5 j
      = entryMul (fun k : Fin 256 => x0 (ix2 (r0 j) k)) (fun k => x2 (ix2 (r0 j) k)) (fun k => x3 (ix2 k (c1 j))) (fun k => x4 (ix2 k (c1 j)))
          (x1 (ix2 (r0 j) 0)) (x5 (ix2 0 (c1 j))) zf :=
  (congrArg (k1_pay2 x0 x1 x2 x3 x4 x5) (ix2_r0_c1 j).symm).trans (pay1h_apply x0 x1 x2 x3 x4 x5 (r0 j) (c1 j))

/-- The second kernel's second stored entry: three dense layers over the row of hidden features it has just formed. -/
theorem pay1q_apply (x0 : Vec Ideal S2000x256 .f32) (x1 : Vec Ideal S2000x1 .f32) (x2 : Vec Ideal S2000x256 .bf16)
    (x3 x4 : Vec Ideal S256x256 .f32) (x5 : Vec Ideal S1x256 .f32) (x6 : Vec Ideal S256x128 .f32) (x7 : Vec Ideal S1x128 .f32)
    (x8 : Vec Ideal S128x64 .f32) (x9 : Vec Ideal S1x64 .f32) (x10 : Vec Ideal S64x10 .f32) (x11 : Vec Ideal S1x10 .f32)
    (p : Fin 2000) (q : Fin 10) :
    k1_pay1 (k1_pay3 x0 x1 x2 x3 x4 x5 x6 x7) (k1_pay4 (F := Ideal)) x8 x9 x10 x11 (ix2 p q)
      = dense (fun k3 : Fin 64 => max (dense (fun k2 : Fin 128 => max (dense (fun k1 : Fin 256 => k1_pay2 x0 x1 x2 x3 x4 x5 (ix2 p k1))
            (fun k1 => x6 (ix2 k1 k2)) (x7 (ix2 0 k2))) zf) (fun k2 => x8 (ix2 k2 k3)) (x9 (ix2 0 k3))) zf)
          (fun k3 => x10 (ix2 k3 q)) (x11 (ix2 0 q)) := by
  unfold k1_pay1 k1_pay3 k1_pay4 dense
  dsimp only
  rw [addf_apply, mm_64_10, broadcastTo_1b_ab_apply]
  simp only [truncf_apply, maximumf_apply, addf_apply, mm_128_64, mm_256_128, broadcastTo_1b_ab_apply, broadcast_apply, shapeCast_self]
  rfl

theorem pay1q_at (x0 : Vec Ideal S2000x256 .f32) (x1 : Vec Ideal S2000x1 .f32) (x2 : Vec Ideal S2000x256 .bf16)
    (x3 x4 : Vec Ideal S256x256 .f32) (x5 : Vec Ideal S1x256 .f32) (x6 : Vec Ideal S256x128 .f32) (x7 : Vec Ideal S1x128 .f32)
    (x8 : Vec Ideal S128x64 .f32) (x9 : Vec Ideal S1x64 .f32) (x10 : Vec Ideal S64x10 .f32) (x11 : Vec Ideal S1x10 .f32)
    (j : S2000x10.Idx) :
    k1_pay1 (k1_pay3 x0 x1 x2 x3 x4 x5 x6 x7) (k1_pay4 (F := Ideal)) x8 x9 x10 x11 j
      = dense (fun k3 : Fin 64 => max (dense (fun k2 : Fin 128 => max (dense (fun k1 : Fin 256 => k1_pay2 x0 x1 x2 x3 x4 x5 (ix2 (r0 j) k1))
            (fun k1 => x6 (ix2 k1 k2)) (x7 (ix2 0 k2))) zf) (fun k2 => x8 (ix2 k2 k3)) (x9 (ix2 0 k3))) zf)
          (fun k3 => x10 (ix2 k3 (c1 j))) (x11 (ix2 0 (c1 j))) :=
  (congrArg (k1_pay1 (k1_pay3 x0 x1 x2 x3 x4 x5 x6 x7) (k1_pay4 (F := Ideal)) x8 x9 x10 x11) (ix2_r0_c1 j).symm).trans
    (pay1q_apply x0 x1 x2 x3 x4 x5 x6 x7 x8 x9 x10 x11 (r0 j) (c1 j))

end Cert.KernelIdeal.Pay

end
-- ==== Proof.Region0.lean ====
/-
  What the first kernel's grid leaves in its output array, for any contents `V` the region is entered with.

  The grid has 25 points; point `t` reads rows `2000·t … 2000·t + 1999` of the neighbour sums, of the reciprocal column
  and of the node features, the two weight matrices and the bias row whole, and writes rows `2000·t …` of the output.
  So the block it writes is the block of the whole-array layer function `layerMul` of the entry arrays, and since the
  25 row blocks cover the 50000 rows the output array ends as that function.
-/
import proofs.«127710_j26336739459481_2_alg».proof.Proof.KernelIdealFrameP
import proofs.«127710_j26336739459481_2_alg».proof.Proof.Payload
import proofs.«127710_j26336739459481_2_alg».proof.Proof.LayerSpec

set_option maxRecDepth 16384

noncomputable section

namespace Cert.KernelIdeal.Region0

open Cert.KernelIdeal Cert.KernelIdeal.Gen Cert.KernelIdeal.GenP Cert.KernelIdeal.Pay Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the row windows and the output move with the point, the weight
    and bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer function of the arrays the region is entered with. -/
abbrev G (c : Dev nD) : S50000x256.Idx → EReal :=
  layerMul (V c main_v26) (V c main_v12) (V c main_arg0) (V c main_v13) (V c main_v14) (V c main_v27) zf

/-- What point `t` writes back is block `t` of the layer function. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x256) hz,
    View.ld_unit_zero (S := S1x256) hz]
  obtain ⟨e00, e01, e10, e11, e20, e21, e30, e31, e40, e41, e50, e51, e60, e61⟩ := idx_facts t
  funext j
  show k0_pay1 (iblk0 V c 0 t) (iblk0 V c 1 t) (iblk0 V c 2 t) (iblk0 V c 3 t) (iblk0 V c 4 t) (iblk0 V c 5 t) j
    = G V c (((cfg0.win 6).blk t).view.emb j)
  rw [pay0_at]
  refine layerMul_block_at (V c main_v26) (V c main_v12) (V c main_arg0) (V c main_v13) (V c main_v14) (V c main_v27) zf
    (((cfg0.win 0).blk t).view.emb) (((cfg0.win 2).blk t).view.emb) (((cfg0.win 1).blk t).view.emb)
    (((cfg0.win 3).blk t).view.emb) (((cfg0.win 4).blk t).view.emb) (((cfg0.win 5).blk t).view.emb)
    (((cfg0.win 6).blk t).view.emb) j ?_ ?_ ?_ ?_ ?_ ?_
  · intro k; funext a; apply Fin.ext
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 128 + 1 * k.val = k.val; omega
  · intro k; funext a; apply Fin.ext
    match a with
    | ⟨0, _⟩ => show win0_2.index t (0 : Fin 2) * 2000 + 1 * (j 0).val = win0_6.index t (0 : Fin 2) * 2000 + 1 * (j 0).val; omega
    | ⟨1, _⟩ => show win0_2.index t (1 : Fin 2) * 128 + 1 * k.val = k.val; omega
  · funext a; apply Fin.ext
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 1 + 1 * 0 = 0; omega
  · intro k; funext a; apply Fin.ext
    match a with
    | ⟨0, _⟩ => show win0_3.index t (0 : Fin 2) * 128 + 1 * k.val = k.val; omega
    | ⟨1, _⟩ => show win0_3.index t (1 : Fin 2) * 256 + 1 * (j 1).val = win0_6.index t (1 : Fin 2) * 256 + 1 * (j 1).val; omega
  · intro k; funext a; apply Fin.ext
    match a with
    | ⟨0, _⟩ => show win0_4.index t (0 : Fin 2) * 128 + 1 * k.val = k.val; omega
    | ⟨1, _⟩ => show win0_4.index t (1 : Fin 2) * 256 + 1 * (j 1).val = win0_6.index t (1 : Fin 2) * 256 + 1 * (j 1).val; omega
  · funext a; apply Fin.ext
    match a with
    | ⟨0, _⟩ => show win0_5.index t (0 : Fin 2) * 1 + 1 * 0 = 0; omega
    | ⟨1, _⟩ => show win0_5.index t (1 : Fin 2) * 256 + 1 * (j 1).val = win0_6.index t (1 : Fin 2) * 256 + 1 * (j 1).val; omega

/-- An index of the output array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v28).slice (win0_6.rect t)).set ↔ _
  rw [View.set_slice_whole, Rect.mem_set_unit]
  exact Iff.rfl

/-- Every row block is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- The 25 row blocks cover the output array. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- The output array after the grid: the layer function of the entry arrays. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.Region1.lean ====
/-
  What the second kernel's grid leaves in its two output arrays, for any contents `V` the region is entered with.

  Point `t` of the 25 reads rows `2000·t …` of the second layer's neighbour sums, of the reciprocal column and of the
  first layer's features, and every weight matrix and bias row whole; it writes rows `2000·t …` of the second layer's
  features (the layer function `layerMul` of the entry arrays) and of the decoder's output (`decode` of that same
  layer function: the kernel decodes the rows it has just formed).  The row blocks cover both output arrays.
-/
import proofs.«127710_j26336739459481_2_alg».proof.Proof.KernelIdealFrameP
import proofs.«127710_j26336739459481_2_alg».proof.Proof.Payload
import proofs.«127710_j26336739459481_2_alg».proof.Proof.LayerSpec

set_option maxRecDepth 16384

noncomputable section

namespace Cert.KernelIdeal.Region1

open Cert.KernelIdeal Cert.KernelIdeal.Gen Cert.KernelIdeal.GenP Cert.KernelIdeal.Pay Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the three row windows and the two outputs move with the point,
    the weight and bias windows stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = t.val ∧ win1_12.index t (1 : Fin 2) = 0
    ∧ win1_13.index t (0 : Fin 2) = t.val ∧ win1_13.index t (1 : Fin 2) = 0 :=
  (by decide +kernel : ∀ t : Fin grid1.N, _)

/-- The second layer's features as a function of the arrays the region is entered with. -/
abbrev H (c : Dev nD) : S50000x256.Idx → EReal :=
  layerMul (V c main_v41) (V c main_v12) (V c main_v28) (V c main_v29) (V c main_v30) (V c main_v45) zf

/-- The decoder's output as a function of the arrays the region is entered with. -/
abbrev Q (c : Dev nD) : S50000x10.Idx → EReal :=
  decode (H V c) (V c main_v42) (V c main_v46) (V c main_v43) (V c main_v47) (V c main_v44) (V c main_v48) zf

/-- The layer entry formed from point `t`'s blocks at `(p, q)` is the layer function at row `2000·t + p`, column `q`. -/
theorem hblock (c : Dev nD) (t : Fin cfg1.N) (p : Fin 2000) (q : Fin 256) :
    entryMul (fun k : Fin 256 => iblk1 V c 0 t (ix2 p k)) (fun k => iblk1 V c 2 t (ix2 p k)) (fun k => iblk1 V c 3 t (ix2 k q))
        (fun k => iblk1 V c 4 t (ix2 k q)) (iblk1 V c 1 t (ix2 p 0)) (iblk1 V c 5 t (ix2 0 q)) zf
      = H V c (((cfg1.win 12).blk t).view.emb (ix2 p q)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  refine layerMul_block (V c main_v41) (V c main_v12) (V c main_v28) (V c main_v29) (V c main_v30) (V c main_v45) zf
    (((cfg1.win 0).blk t).view.emb) (((cfg1.win 2).blk t).view.emb) (((cfg1.win 1).blk t).view.emb)
    (((cfg1.win 3).blk t).view.emb) (((cfg1.win 4).blk t).view.emb) (((cfg1.win 5).blk t).view.emb)
    (((cfg1.win 12).blk t).view.emb) p q ?_ ?_ ?_ ?_ ?_ ?_
  · intro k; funext a; apply Fin.ext
    match a with
    | ⟨0, _⟩ => show win1_0.index t (0 : Fin 2) * 2000 + 1 * p.val = win1_12.index t (0 : Fin 2) * 2000 + 1 * p.val; omega
    | ⟨1, _⟩ => show win1_0.index t (1 : Fin 2) * 256 + 1 * k.val = k.val; omega
  · intro k; funext a; apply Fin.ext
    match a with
    | ⟨0, _⟩ => show win1_2.index t (0 : Fin 2) * 2000 + 1 * p.val = win1_12.index t (0 : Fin 2) * 2000 + 1 * p.val; omega
    | ⟨1, _⟩ => show win1_2.index t (1 : Fin 2) * 256 + 1 * k.val = k.val; omega
  · funext a; apply Fin.ext
    match a with
    | ⟨0, _⟩ => show win1_1.index t (0 : Fin 2) * 2000 + 1 * p.val = win1_12.index t (0 : Fin 2) * 2000 + 1 * p.val; omega
    | ⟨1, _⟩ => show win1_1.index t (1 : Fin 2) * 1 + 1 * 0 = 0; omega
  · intro k; funext a; apply Fin.ext
    match a with
    | ⟨0, _⟩ => show win1_3.index t (0 : Fin 2) * 256 + 1 * k.val = k.val; omega
    | ⟨1, _⟩ => show win1_3.index t (1 : Fin 2) * 256 + 1 * q.val = win1_12.index t (1 : Fin 2) * 256 + 1 * q.val; omega
  · intro k; funext a; apply Fin.ext
    match a with
    | ⟨0, _⟩ => show win1_4.index t (0 : Fin 2) * 256 + 1 * k.val = k.val; omega
    | ⟨1, _⟩ => show win1_4.index t (1 : Fin 2) * 256 + 1 * q.val = win1_12.index t (1 : Fin 2) * 256 + 1 * q.val; omega
  · funext a; apply Fin.ext
    match a with
    | ⟨0, _⟩ => show win1_5.index t (0 : Fin 2) * 1 + 1 * 0 = 0; omega
    | ⟨1, _⟩ => show win1_5.index t (1 : Fin 2) * 256 + 1 * q.val = win1_12.index t (1 : Fin 2) * 256 + 1 * q.val; omega

/-- What point `t` writes back to the features' array is block `t` of the layer function. -/
theorem flushed12_eq (c : Dev nD) (t : Fin cfg1.N) :
    (dat1 V c).flushed 12 t = ((cfg1.win 12).blk t).view.read (Elt Ideal) (H V c) := by
  show (cfg1.win 12).cut (grid1.coords t) ((dat1 V c).after 12 t) = _
  rw [after1_12]
  unfold out1_12
  rw [View.canon_unit_zero hz]
  simp only [View.ld_unit_zero (S := S2000x256) hz, View.ld_unit_zero (S := S2000x1) hz, View.ld_unit_zero (S := S256x256) hz,
    View.ld_unit_zero (S := S1x256) hz]
  funext j
  show k1_pay2 (iblk1 V c 0 t) (iblk1 V c 1 t) (iblk1 V c 2 t) (iblk1 V c 3 t) (iblk1 V c 4 t) (iblk1 V c 5 t) j
    = H V c (((cfg1.win 12).blk t).view.emb j)
  rw [pay1h_at]
  exact (hblock V c t (r0 j) (c1 j)).trans (congrArg (H V c) (congrArg (((cfg1.win 12).blk t).view.emb) (ix2_r0_c1 j)))

/-- What point `t` writes back to the decoder's array is block `t` of the decoder function. -/
theorem flushed13_eq (c : Dev nD) (t : Fin cfg1.N) :
    (dat1 V c).flushed 13 t = ((cfg1.win 13).blk t).view.read (Elt Ideal) (Q V c) := by
  show (cfg1.win 13).cut (grid1.coords t) ((dat1 V c).after 13 t) = _
  rw [after1_13]
  unfold out1_13
  rw [View.canon_unit_zero hz]
  simp only [View.ld_unit_zero (S := S2000x256) hz, View.ld_unit_zero (S := S2000x1) hz, View.ld_unit_zero (S := S256x256) hz,
    View.ld_unit_zero (S := S1x256) hz, View.ld_unit_zero (S := S256x128) hz, View.ld_unit_zero (S := S1x128) hz,
    View.ld_unit_zero (S := S128x64) hz, View.ld_unit_zero (S := S1x64) hz, View.ld_unit_zero (S := S64x10) hz,
    View.ld_unit_zero (S := S1x10) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show k1_pay1 (k1_pay3 (iblk1 V c 0 t) (iblk1 V c 1 t) (iblk1 V c 2 t) (iblk1 V c 3 t) (iblk1 V c 4 t) (iblk1 V c 5 t) (iblk1 V c 6 t) (iblk1 V c 7 t))
      (k1_pay4 (F := Ideal)) (iblk1 V c 8 t) (iblk1 V c 9 t) (iblk1 V c 10 t) (iblk1 V c 11 t) j
    = Q V c (((cfg1.win 13).blk t).view.emb j)
  rw [pay1q_at]
  refine decode_block_at (H V c) (V c main_v42) (V c main_v46) (V c main_v43) (V c main_v47) (V c main_v44) (V c main_v48) zf
    (fun p k1 => k1_pay2 (iblk1 V c 0 t) (iblk1 V c 1 t) (iblk1 V c 2 t) (iblk1 V c 3 t) (iblk1 V c 4 t) (iblk1 V c 5 t) (ix2 p k1))
    (((cfg1.win 6).blk t).view.emb) (((cfg1.win 7).blk t).view.emb) (((cfg1.win 8).blk t).view.emb) (((cfg1.win 9).blk t).view.emb)
    (((cfg1.win 10).blk t).view.emb) (((cfg1.win 11).blk t).view.emb) (((cfg1.win 13).blk t).view.emb) j ?_ ?_ ?_ ?_ ?_ ?_ ?_
  · intro k1
    show k1_pay2 (iblk1 V c 0 t) (iblk1 V c 1 t) (iblk1 V c 2 t) (iblk1 V c 3 t) (iblk1 V c 4 t) (iblk1 V c 5 t) (ix2 (r0 j) k1) = _
    rw [pay1h_apply]
    refine (hblock V c t (r0 j) k1).trans (congrArg (H V c) ?_)
    funext a; apply Fin.ext
    match a with
    | ⟨0, _⟩ => show win1_12.index t (0 : Fin 2) * 2000 + 1 * (j 0).val = win1_13.index t (0 : Fin 2) * 2000 + 1 * (j 0).val; omega
    | ⟨1, _⟩ => show win1_12.index t (1 : Fin 2) * 256 + 1 * k1.val = k1.val; omega
  · intro k1 k2; funext a; apply Fin.ext
    match a with
    | ⟨0, _⟩ => show win1_6.index t (0 : Fin 2) * 256 + 1 * k1.val = k1.val; omega
    | ⟨1, _⟩ => show win1_6.index t (1 : Fin 2) * 128 + 1 * k2.val = k2.val; omega
  · intro k2; funext a; apply Fin.ext
    match a with
    | ⟨0, _⟩ => show win1_7.index t (0 : Fin 2) * 1 + 1 * 0 = 0; omega
    | ⟨1, _⟩ => show win1_7.index t (1 : Fin 2) * 128 + 1 * k2.val = k2.val; omega
  · intro k2 k3; funext a; apply Fin.ext
    match a with
    | ⟨0, _⟩ => show win1_8.index t (0 : Fin 2) * 128 + 1 * k2.val = k2.val; omega
    | ⟨1, _⟩ => show win1_8.index t (1 : Fin 2) * 64 + 1 * k3.val = k3.val; omega
  · intro k3; funext a; apply Fin.ext
    match a with
    | ⟨0, _⟩ => show win1_9.index t (0 : Fin 2) * 1 + 1 * 0 = 0; omega
    | ⟨1, _⟩ => show win1_9.index t (1 : Fin 2) * 64 + 1 * k3.val = k3.val; omega
  · intro k3; funext a; apply Fin.ext
    match a with
    | ⟨0, _⟩ => show win1_10.index t (0 : Fin 2) * 64 + 1 * k3.val = k3.val; omega
    | ⟨1, _⟩ => show win1_10.index t (1 : Fin 2) * 10 + 1 * (j 1).val = win1_13.index t (1 : Fin 2) * 10 + 1 * (j 1).val; omega
  · funext a; apply Fin.ext
    match a with
    | ⟨0, _⟩ => show win1_11.index t (0 : Fin 2) * 1 + 1 * 0 = 0; omega
    | ⟨1, _⟩ => show win1_11.index t (1 : Fin 2) * 10 + 1 * (j 1).val = win1_13.index t (1 : Fin 2) * 10 + 1 * (j 1).val; omega

/-- An index of the features' array is in point `t`'s block iff each coordinate is in the block's range. -/
theorem mem_blk12 (t : Fin cfg1.N) (i : S50000x256.Idx) :
    i ∈ ((cfg1.win 12).blk t).view.set ↔ ∀ a : Fin 2, win1_12.index t a * S2000x256.size a ≤ (i a).val ∧ (i a).val < win1_12.index t a * S2000x256.size a + S2000x256.size a := by
  show i ∈ ((View.whole main_v49_0).slice (win1_12.rect t)).set ↔ _
  rw [View.set_slice_whole, Rect.mem_set_unit]
  exact Iff.rfl

theorem mem_blk13 (t : Fin cfg1.N) (i : S50000x10.Idx) :
    i ∈ ((cfg1.win 13).blk t).view.set ↔ ∀ a : Fin 2, win1_13.index t a * S2000x10.size a ≤ (i a).val ∧ (i a).val < win1_13.index t a * S2000x10.size a + S2000x10.size a := by
  show i ∈ ((View.whole main_v49_1).slice (win1_13.rect t)).set ↔ _
  rw [View.set_slice_whole, Rect.mem_set_unit]
  exact Iff.rfl

/-- Every row block is some point's. -/
theorem idx_onto12 : ∀ q0 : Fin 25, ∃ t : Fin cfg1.N, win1_12.index t = ![q0.val, 0] :=
  (by decide +kernel : ∀ q0 : Fin 25, ∃ t : Fin grid1.N, win1_12.index t = ![q0.val, 0])
theorem idx_onto13 : ∀ q0 : Fin 25, ∃ t : Fin cfg1.N, win1_13.index t = ![q0.val, 0] :=
  (by decide +kernel : ∀ q0 : Fin 25, ∃ t : Fin grid1.N, win1_13.index t = ![q0.val, 0])

theorem cover12 (i : S50000x256.Idx) : ∃ t : Fin cfg1.N, (cfg1.win 12).flush t = true ∧ i ∈ ((cfg1.win 12).blk t).view.set := by
  have hi0 : (i 0).val < 50000 := (i 0).isLt
  have hi1 : (i 1).val < 256 := (i 1).isLt
  obtain ⟨t, ht⟩ := idx_onto12 ⟨(i 0).val / 2000, by omega⟩
  have q0 : win1_12.index t (0 : Fin 2) = (i 0).val / 2000 := congrFun ht 0
  have q1 : win1_12.index t (1 : Fin 2) = 0 := congrFun ht 1
  refine ⟨t, flush1_12 t, ?_⟩
  rw [mem_blk12]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 256 ≤ (i 1).val ∧ (i 1).val < win1_12.index t (1 : Fin 2) * 256 + 256; omega

theorem cover13 (i : S50000x10.Idx) : ∃ t : Fin cfg1.N, (cfg1.win 13).flush t = true ∧ i ∈ ((cfg1.win 13).blk t).view.set := by
  have hi0 : (i 0).val < 50000 := (i 0).isLt
  have hi1 : (i 1).val < 10 := (i 1).isLt
  obtain ⟨t, ht⟩ := idx_onto13 ⟨(i 0).val / 2000, by omega⟩
  have q0 : win1_13.index t (0 : Fin 2) = (i 0).val / 2000 := congrFun ht 0
  have q1 : win1_13.index t (1 : Fin 2) = 0 := congrFun ht 1
  refine ⟨t, flush1_13 t, ?_⟩
  rw [mem_blk13]
  intro a
  match a with
  | ⟨0, _⟩ => show win1_13.index t (0 : Fin 2) * 2000 ≤ (i 0).val ∧ (i 0).val < win1_13.index t (0 : Fin 2) * 2000 + 2000; omega
  | ⟨1, _⟩ => show win1_13.index t (1 : Fin 2) * 10 ≤ (i 1).val ∧ (i 1).val < win1_13.index t (1 : Fin 2) * 10 + 10; omega

/-- The features' array after the grid. -/
theorem final12 (c : Dev nD) : (dat1 V c).arrAt 12 cfg1.N = H V c :=
  (dat1 V c).arrAt_eq_of_cover 12 (H V c) (fun t _ => flushed12_eq V c t) cover12

/-- The decoder's array after the grid. -/
theorem final13 (c : Dev nD) : (dat1 V c).arrAt 13 cfg1.N = Q V c :=
  (dat1 V c).arrAt_eq_of_cover 13 (Q V c) (fun t _ => flushed13_eq V c t) cover13

end Cert.KernelIdeal.Region1

end
-- ==== Proof.KernelTerms.lean ====
/-
  The two small host computations that only the kernel's program makes, read at an index.

  The reciprocal column: the neighbour counts `[50000]`, seen as a column `[50000, 1]`, clamped below by `1.0` and
  inverted — entry `(r, 0)` is `1.0 / max (cnt r) 1.0`.  The bias rows: a bias vector `[n]` seen as a row `[1, n]` —
  entry `(0, q)` is the vector's entry `q`.
-/
import proofs.«127710_j26336739459481_2_alg».proof.Proof.Gen.KernelIdeal
import proofs.«127710_j26336739459481_2_alg».proof.Proof.LibKeepdims
import Idealize.ShloMosaic.Lib.ValueLayout
import Idealize.ShloMosaic.Lib.Pipeline.Value

noncomputable section

namespace Cert.KernelIdeal.Terms

open Cert.KernelIdeal Cert.KernelIdeal.Facts₀ Idealize.ShloMosaic Idealize.ShloMosaic.ValueIdx

/-- The float `1.0`. -/
abbrev one : EReal := Ideal.ofBits .f32 0x3F800000#32

/-- A scalar spread over any shape reads the scalar. -/
theorem bcast_scalar_apply {s : Shape} {α : Type} (h : S_.BroadcastsInDim s ![]) (x : S_.Idx → α) (j : s.Idx) :
    broadcastInDim s ![] h x j = x ix0 :=
  broadcastInDim_apply _ h x j ix0 (fun a => a.elim0)

/-- The reciprocal column of the clamped neighbour counts. -/
def invCol (cnt : S50000.Idx → EReal) : S50000x1.Idx → EReal :=
  Host.divf (F := Ideal) (broadcastInDim S50000x1 ![] bcast_S_S50000x1 (constant (F := Ideal) S_ .f32 0x3F800000#32))
    (maximumf (F := Ideal) (shapeCast S50000x1 cnt shapeCasts_S50000_S50000x1)
      (broadcastInDim S50000x1 ![] bcast_S_S50000x1 (constant (F := Ideal) S_ .f32 0x3F800000#32)))

theorem invCol_apply (cnt : S50000.Idx → EReal) (r : Fin 50000) :
    invCol cnt (ix2 r (0 : Fin 1)) = Ideal.div one (max (cnt (ix1 r)) one) := by
  unfold invCol
  show Ideal.div (broadcastInDim S50000x1 ![] bcast_S_S50000x1 (constant (F := Ideal) S_ .f32 0x3F800000#32) (ix2 r (0 : Fin 1)))
      (max (shapeCast S50000x1 cnt shapeCasts_S50000_S50000x1 (ix2 r (0 : Fin 1)))
        (broadcastInDim S50000x1 ![] bcast_S_S50000x1 (constant (F := Ideal) S_ .f32 0x3F800000#32) (ix2 r (0 : Fin 1)))) = _
  rw [bcast_scalar_apply, Keepdims.shapeCast_a_a1_apply]
  rfl

/-- A bias vector seen as a row. -/
abbrev biasRow {n : ℕ} (b : (⟨1, ![n]⟩ : Shape).Idx → EReal) (h : (⟨1, ![n]⟩ : Shape).ShapeCasts ⟨2, ![1, n]⟩) :
    (⟨2, ![1, n]⟩ : Shape).Idx → EReal := shapeCast ⟨2, ![1, n]⟩ b h

theorem biasRow_apply {n : ℕ} (b : (⟨1, ![n]⟩ : Shape).Idx → EReal) (h : (⟨1, ![n]⟩ : Shape).ShapeCasts ⟨2, ![1, n]⟩) (q : Fin n) :
    biasRow b h (ix2 (0 : Fin 1) q) = b (ix1 q) := shapeCast_a_1a_apply b h 0 q

end Cert.KernelIdeal.Terms

end
-- ==== Proof.RefLayers.lean ====
/-
  The reference's three results as the layer functions of the argument arrays.

  The reference takes each layer's mean by dividing the neighbour sums by the clamped count and adds the bias before
  the root term; entry by entry that is `entryDiv`, and since the clamped count is at least `1.0` it is never zero, so
  it is the kernel's arrangement `entryMul` with the reciprocal column (`entryMul_eq_entryDiv`).  The first layer's
  output `H1` feeds the second both as root features and, gathered along the edges and summed at their heads, as
  neighbour sums `agg2 H1`; the decoder is the same three dense layers in both programs.
-/
import proofs.«127710_j26336739459481_2_alg».proof.Proof.Gen.ReferenceIdeal.Read
import proofs.«127710_j26336739459481_2_alg».proof.Proof.LayerSpec
import proofs.«127710_j26336739459481_2_alg».proof.Proof.KernelTerms

noncomputable section

namespace Cert.RefLayers

open Cert.ReferenceIdeal Cert.ReferenceIdeal.Read Cert.Sage Cert.KernelIdeal.Terms
open Idealize.ShloMosaic Idealize.ShloMosaic.ValueIdx

/-- The rectifier's floor: the float `0.0`. -/
abbrev zf : EReal := Ideal.ofBits .f32 0x00000000#32

local macro "idx_rfl1" : tactic => `(tactic| (funext a; apply Fin.ext; match a with | ⟨0, _⟩ => rfl))
local macro "idx_rfl2" : tactic => `(tactic| (funext a; apply Fin.ext; match a with | ⟨0, _⟩ => rfl | ⟨1, _⟩ => rfl))

/-- The reciprocal column of the clamped neighbour counts of the edge list `x1`. -/
abbrev inv (x1 : (⟨S2x800000, .i32⟩ : BufTy).Contents (Elt Ideal)) : Arr 50000 1 := invCol (val_main_v17 (F := Ideal) x1)

/-- The first layer's features. -/
abbrev H1 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) : Arr 50000 256 :=
  layerMul (val_main_v13 (F := Ideal) x0 x1) (inv x1) x0 (val_main_v23 (F := Ideal) x2) (val_main_v28 (F := Ideal) x4)
    (biasRow x3 Cert.KernelIdeal.Facts₀.shapeCasts_S256_S1x256) zf

/-- Features gathered along the edges' tails and summed at their heads. -/
def agg2 (Hh : FVec Ideal S50000x256 .f32) (x1 : (⟨S2x800000, .i32⟩ : BufTy).Contents (Elt Ideal)) : FVec Ideal S50000x256 .f32 :=
  Host.scatterAdd (F := Ideal) scatter_S50000x256_S800000x1_S800000x256_1_0_0_1 (val_main_v39 (F := Ideal)) (val_main_v40 (F := Ideal) x1)
    (Host.gather gather_S50000x256_S800000x1_S800000x256_1_0_n_n_0_1_1256 Hh (val_main_v37 (F := Ideal) x1))

/-- The second layer's features. -/
abbrev H2 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) : Arr 50000 256 :=
  layerMul (agg2 (H1 x0 x1 x2 x3 x4) x1) (inv x1) (H1 x0 x1 x2 x3 x4) (val_main_v51 (F := Ideal) x5) (val_main_v56 (F := Ideal) x7)
    (biasRow x6 Cert.KernelIdeal.Facts₀.shapeCasts_S256_S1x256) zf

/-- The decoder's output. -/
abbrev Qv (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S128x256, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S10x64, .f32⟩ : BufTy).Contents (Elt Ideal)) (x13 : (⟨S10, .f32⟩ : BufTy).Contents (Elt Ideal)) : Arr 50000 10 :=
  decode (H2 x0 x1 x2 x3 x4 x5 x6 x7) (val_main_v60 (F := Ideal) x8) (biasRow x9 Cert.KernelIdeal.Facts₀.shapeCasts_S128_S1x128)
    (val_main_v66 (F := Ideal) x10) (biasRow x11 Cert.KernelIdeal.Facts₀.shapeCasts_S64_S1x64)
    (val_main_v72 (F := Ideal) x12) (biasRow x13 Cert.KernelIdeal.Facts₀.shapeCasts_S10_S1x10) zf

/-- The first layer's divisor at `(p, k)`: the clamped count of row `p`. -/
theorem den1 (x1 : (⟨S2x800000, .i32⟩ : BufTy).Contents (Elt Ideal)) (p : Fin 50000) (k : Fin 128) :
    val_main_v21 (F := Ideal) x1 (ix2 p k) = max (val_main_v17 (F := Ideal) x1 (ix1 p)) one := by
  rw [val_main_v21_apply, val_main_v20_apply, val_main_v19_apply, val_main_v18_apply, val_main_cst_3_apply]
  have e : idx_main_v20 (idx_main_v21 (ix2 p k)) = ix1 p := by idx_rfl1
  rw [e]
  rfl

/-- The first layer's mean at `(p, k)`. -/
theorem mean1 (x0 : (⟨S50000x128, .f32⟩ : BufTy).Contents (Elt Ideal)) (x1 : (⟨S2x800000, .i32⟩ : BufTy).Contents (Elt Ideal)) (p : Fin 50000) (k : Fin 128) :
    val_main_v22 (F := Ideal) x0 x1 (ix2 p k)
      = Ideal.div (val_main_v13 (F := Ideal) x0 x1 (ix2 p k)) (max (val_main_v17 (F := Ideal) x1 (ix1 p)) one) := by
  rw [val_main_v22_apply, den1]
  rfl

/-- The reference's first layer is `H1`. -/
theorem ref_h1 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) : val_main_v31 (F := Ideal) x0 x1 x2 x3 x4 = H1 x0 x1 x2 x3 x4 := by
  funext i
  have e1 : ∀ k : Fin 128, lidx_main_v24 i k = ix2 (r0 i) k := fun k => by idx_rfl2
  have e2 : ∀ k : Fin 128, ridx_main_v24 i k = ix2 k (c1 i) := fun k => by idx_rfl2
  have e3 : ∀ k : Fin 128, lidx_main_v29 i k = ix2 (r0 i) k := fun k => by idx_rfl2
  have e4 : ∀ k : Fin 128, ridx_main_v29 i k = ix2 k (c1 i) := fun k => by idx_rfl2
  have e6 : idx_main_v25 (idx_main_v26 i) = ix1 (c1 i) := by idx_rfl1
  rw [val_main_v31_apply, val_main_v30_apply, val_main_v27_apply, val_main_v24_apply, val_main_v29_apply, val_main_v26_apply,
    val_main_v25_apply, val_main_call0_v0_apply, val_main_call0_cst_apply]
  simp only [e1, e2, e3, e4, e6]
  simp only [mean1]
  unfold H1 inv layerMul
  rw [invCol_apply, biasRow_apply, entryMul_eq_entryDiv _ _ _ _ _ _ _ _ Ideal.ofBits_one_f32 (clamp_ne_zero _)]
  rw [Ideal.maximumf_def, Ideal.addf_def, Ideal.addf_def, Ideal.ofBits_def]
  unfold entryDiv
  rfl

end Cert.RefLayers

end
-- ==== Proof.HostArrays.lean ====
/-
  The arrays each kernel region is entered with, as functions of the launch memory.

  Before the first kernel the host forms the neighbour sums of the node features (gathered along the edges' tails,
  summed at their heads; the passage through the narrower float format is the identity on the extended reals), the
  reciprocal column of the clamped neighbour counts, the transposed weights and the bias row.  Between the kernels it
  forms the same neighbour sums of the first kernel's output, and the remaining transposed weights and bias rows; the
  reciprocal column and the first kernel's output pass through unchanged.  Each is stated with the reference's own
  operation terms, which are the same operations of the same arguments.
-/
import proofs.«127710_j26336739459481_2_alg».proof.Proof.KernelIdealFrameP
import proofs.«127710_j26336739459481_2_alg».proof.Proof.Region0
import proofs.«127710_j26336739459481_2_alg».proof.Proof.Region1
import proofs.«127710_j26336739459481_2_alg».proof.Proof.RefLayers
import Idealize.ShloMosaic.Lib.StableHlo.Run

set_option maxRecDepth 16384

noncomputable section

namespace Cert.KernelIdeal.HostArrays

open Cert.KernelIdeal Cert.KernelIdeal.Gen Cert.KernelIdeal.GenP Cert.Sage Cert.KernelIdeal.Terms
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Before the first kernel -/

/-- The first layer's neighbour sums. -/
theorem v1_agg (c : Dev nD) :
    V1 m ρ c main_v26 = Cert.ReferenceIdeal.Read.val_main_v13 (F := Ideal) (m ((c : Thread nD τ).loc main_arg0)) (m ((c : Thread nD τ).loc main_arg1)) := by
  show StableHlo.after hostOps0 (W0 m ρ c) (Proc.devRef .tc main_v26) = _
  after_results_simp <;> rfl

/-- The reciprocal column. -/
theorem v1_inv (c : Dev nD) :
    V1 m ρ c main_v12 = Cert.RefLayers.inv (m ((c : Thread nD τ).loc main_arg1)) := by
  show StableHlo.after hostOps0 (W0 m ρ c) (Proc.devRef .tc main_v12) = _
  after_results_simp <;> rfl

/-- The node features. -/
theorem v1_root (c : Dev nD) :
    V1 m ρ c main_arg0 = (m ((c : Thread nD τ).loc main_arg0)) := by
  show StableHlo.after hostOps0 (W0 m ρ c) (Proc.devRef .tc main_arg0) = _
  after_results_simp <;> rfl

/-- The transposed neighbour weights. -/
theorem v1_wl (c : Dev nD) :
    V1 m ρ c main_v13 = Cert.ReferenceIdeal.Read.val_main_v23 (F := Ideal) (m ((c : Thread nD τ).loc main_arg2)) := by
  show StableHlo.after hostOps0 (W0 m ρ c) (Proc.devRef .tc main_v13) = _
  after_results_simp <;> rfl

/-- The transposed root weights. -/
theorem v1_wr (c : Dev nD) :
    V1 m ρ c main_v14 = Cert.ReferenceIdeal.Read.val_main_v28 (F := Ideal) (m ((c : Thread nD τ).loc main_arg4)) := by
  show StableHlo.after hostOps0 (W0 m ρ c) (Proc.devRef .tc main_v14) = _
  after_results_simp <;> rfl

/-- The bias row. -/
theorem v1_b (c : Dev nD) :
    V1 m ρ c main_v27 = biasRow (m ((c : Thread nD τ).loc main_arg3)) Cert.KernelIdeal.Facts₀.shapeCasts_S256_S1x256 := by
  show StableHlo.after hostOps0 (W0 m ρ c) (Proc.devRef .tc main_v27) = _
  after_results_simp <;> rfl

/-- So the first kernel's output array is the first layer's features `H1` of the arguments. -/
theorem h1_eq (c : Dev nD) :
    Region0.G (V1 m ρ) c = Cert.RefLayers.H1 (m ((c : Thread nD τ).loc main_arg0)) (m ((c : Thread nD τ).loc main_arg1)) (m ((c : Thread nD τ).loc main_arg2)) (m ((c : Thread nD τ).loc main_arg3)) (m ((c : Thread nD τ).loc main_arg4)) := by
  show layerMul (V1 m ρ c main_v26) (V1 m ρ c main_v12) (V1 m ρ c main_arg0) (V1 m ρ c main_v13) (V1 m ρ c main_v14) (V1 m ρ c main_v27) Pay.zf = _
  rw [v1_agg, v1_inv, v1_root, v1_wl, v1_wr, v1_b]

/-! ## Through the first kernel: what the second stretch reads -/

/-- Argument 1 is untouched by the first stretch and the first kernel. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)

/-- Argument 5 is untouched by the first stretch and the first kernel. -/
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

/-- Argument 6 is untouched by the first stretch and the first kernel. -/
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

/-- Argument 7 is untouched by the first stretch and the first kernel. -/
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-- Argument 8 is untouched by the first stretch and the first kernel. -/
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

/-- Argument 9 is untouched by the first stretch and the first kernel. -/
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)

/-- Argument 10 is untouched by the first stretch and the first kernel. -/
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)

/-- Argument 11 is untouched by the first stretch and the first kernel. -/
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)

/-- Argument 12 is untouched by the first stretch and the first kernel. -/
theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results_simp <;> rfl)

/-- Argument 13 is untouched by the first stretch and the first kernel. -/
theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results_simp <;> rfl)

/-- The edges' tails, a buffer of the first stretch the first kernel does not touch. -/
theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)

/-- The edges' heads. -/
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)

/-- The first kernel's output array is the first layer's features. -/
theorem W2_h1 (c : Dev nD) : W2 m ρ c (Proc.devRef .tc main_v28) = Cert.RefLayers.H1 (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans ((Region0.final (V1 m ρ) c).trans (h1_eq m ρ c))

/-- The reciprocal column is an input of the first kernel, which leaves it as it found it. -/
theorem W2_inv (c : Dev nD) : W2 m ρ c (Proc.devRef .tc main_v12) = Cert.RefLayers.inv (m ((c : Thread nD τ).loc main_arg1)) :=
  (W2_arr m ρ c 1).trans (((dat0 (V1 m ρ) c).arrAt_in 1 rfl _).trans ((A_eq0 (V1 m ρ) c 1).trans (v1_inv m ρ c)))

/-! ## Before the second kernel -/

/-- The second layer's neighbour sums: the first layer's features gathered along the edges and summed at their heads. -/
theorem v3_agg (c : Dev nD) :
    V3 m ρ c main_v41 = Cert.RefLayers.agg2 (Cert.RefLayers.H1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v41) = _
  after_results_simp
  rw [W2_v1, W2_v3, W2_h1]
  rfl

/-- The reciprocal column passes through the second stretch. -/
theorem v3_inv (c : Dev nD) :
    V3 m ρ c main_v12 = Cert.RefLayers.inv (m ((c : Thread nD τ).loc main_arg1)) := by
  show StableHlo.after hostOps1 (W2 m ρ c) (Proc.devRef .tc main_v12) = _
  after_results_simp
  exact W2_inv m ρ c

/-- The first layer's features pass through the second stretch. -/
theorem v3_h1 (c : Dev nD) :
    V3 m ρ c main_v28 = Cert.RefLayers.H1 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v28) = _
  after_results_simp
  exact W2_h1 m ρ c

/-- The second layer's transposed neighbour weights. -/
theorem v3_wl (c : Dev nD) :
    V3 m ρ c main_v29 = Cert.ReferenceIdeal.Read.val_main_v51 (F := Ideal) (m ((c : Thread nD τ).loc main_arg5)) := by
  show StableHlo.after hostOps1 (W2 m ρ c) (Proc.devRef .tc main_v29) = _
  after_results_simp
  rw [W2_arg5]
  rfl

/-- The second layer's transposed root weights. -/
theorem v3_wr (c : Dev nD) :
    V3 m ρ c main_v30 = Cert.ReferenceIdeal.Read.val_main_v56 (F := Ideal) (m ((c : Thread nD τ).loc main_arg7)) := by
  show StableHlo.after hostOps1 (W2 m ρ c) (Proc.devRef .tc main_v30) = _
  after_results_simp
  rw [W2_arg7]
  rfl

/-- The second layer's bias row. -/
theorem v3_b (c : Dev nD) :
    V3 m ρ c main_v45 = biasRow (m ((c : Thread nD τ).loc main_arg6)) Cert.KernelIdeal.Facts₀.shapeCasts_S256_S1x256 := by
  show StableHlo.after hostOps1 (W2 m ρ c) (Proc.devRef .tc main_v45) = _
  after_results_simp
  rw [W2_arg6]
  rfl

/-- The decoder's first transposed weights. -/
theorem v3_wd1 (c : Dev nD) :
    V3 m ρ c main_v42 = Cert.ReferenceIdeal.Read.val_main_v60 (F := Ideal) (m ((c : Thread nD τ).loc main_arg8)) := by
  show StableHlo.after hostOps1 (W2 m ρ c) (Proc.devRef .tc main_v42) = _
  after_results_simp
  rw [W2_arg8]
  rfl

/-- The decoder's first bias row. -/
theorem v3_bd1 (c : Dev nD) :
    V3 m ρ c main_v46 = biasRow (m ((c : Thread nD τ).loc main_arg9)) Cert.KernelIdeal.Facts₀.shapeCasts_S128_S1x128 := by
  show StableHlo.after hostOps1 (W2 m ρ c) (Proc.devRef .tc main_v46) = _
  after_results_simp
  rw [W2_arg9]
  rfl

/-- The decoder's second transposed weights. -/
theorem v3_wd2 (c : Dev nD) :
    V3 m ρ c main_v43 = Cert.ReferenceIdeal.Read.val_main_v66 (F := Ideal) (m ((c : Thread nD τ).loc main_arg10)) := by
  show StableHlo.after hostOps1 (W2 m ρ c) (Proc.devRef .tc main_v43) = _
  after_results_simp
  rw [W2_arg10]
  rfl

/-- The decoder's second bias row. -/
theorem v3_bd2 (c : Dev nD) :
    V3 m ρ c main_v47 = biasRow (m ((c : Thread nD τ).loc main_arg11)) Cert.KernelIdeal.Facts₀.shapeCasts_S64_S1x64 := by
  show StableHlo.after hostOps1 (W2 m ρ c) (Proc.devRef .tc main_v47) = _
  after_results_simp
  rw [W2_arg11]
  rfl

/-- The decoder's third transposed weights. -/
theorem v3_wd3 (c : Dev nD) :
    V3 m ρ c main_v44 = Cert.ReferenceIdeal.Read.val_main_v72 (F := Ideal) (m ((c : Thread nD τ).loc main_arg12)) := by
  show StableHlo.after hostOps1 (W2 m ρ c) (Proc.devRef .tc main_v44) = _
  after_results_simp
  rw [W2_arg12]
  rfl

/-- The decoder's third bias row. -/
theorem v3_bd3 (c : Dev nD) :
    V3 m ρ c main_v48 = biasRow (m ((c : Thread nD τ).loc main_arg13)) Cert.KernelIdeal.Facts₀.shapeCasts_S10_S1x10 := by
  show StableHlo.after hostOps1 (W2 m ρ c) (Proc.devRef .tc main_v48) = _
  after_results_simp
  rw [W2_arg13]
  rfl

/-- So the second kernel's first output array is the second layer's features `H2` of the arguments. -/
theorem h2_eq (c : Dev nD) :
    Region1.H (V3 m ρ) c = Cert.RefLayers.H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show layerMul (V3 m ρ c main_v41) (V3 m ρ c main_v12) (V3 m ρ c main_v28) (V3 m ρ c main_v29) (V3 m ρ c main_v30) (V3 m ρ c main_v45) Pay.zf = _
  rw [v3_agg, v3_inv, v3_h1, v3_wl, v3_wr, v3_b]

/-- And its second output array is the decoder's output `Qv` of the arguments. -/
theorem q_eq (c : Dev nD) :
    Region1.Q (V3 m ρ) c = Cert.RefLayers.Qv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show decode (Region1.H (V3 m ρ) c) (V3 m ρ c main_v42) (V3 m ρ c main_v46) (V3 m ρ c main_v43) (V3 m ρ c main_v47) (V3 m ρ c main_v44) (V3 m ρ c main_v48) Pay.zf = _
  rw [h2_eq, v3_wd1, v3_bd1, v3_wd2, v3_bd2, v3_wd3, v3_bd3]

end Cert.KernelIdeal.HostArrays

end
-- ==== Proof.RefLayer2.lean ====
/-
  The reference's second graph layer is `H2`.

  Its neighbour sums are the first layer's features gathered along the edges and summed at their heads — the first
  layer being `H1` — and its divisor is the same clamped neighbour count as the first layer's (the reference counts the
  neighbours a second time, by the same operations of the same edge list).
-/
import proofs.«127710_j26336739459481_2_alg».proof.Proof.RefLayers

noncomputable section

namespace Cert.RefLayers

open Cert.ReferenceIdeal Cert.ReferenceIdeal.Read Cert.Sage Cert.KernelIdeal.Terms
open Idealize.ShloMosaic Idealize.ShloMosaic.ValueIdx

local macro "idx_rfl1" : tactic => `(tactic| (funext a; apply Fin.ext; match a with | ⟨0, _⟩ => rfl))
local macro "idx_rfl2" : tactic => `(tactic| (funext a; apply Fin.ext; match a with | ⟨0, _⟩ => rfl | ⟨1, _⟩ => rfl))

/-- The second count is the first: the same operations of the same edge list. -/
theorem count_eq (x1 : (⟨S2x800000, .i32⟩ : BufTy).Contents (Elt Ideal)) : val_main_v45 (F := Ideal) x1 = val_main_v17 (F := Ideal) x1 := by
  unfold val_main_v45 val_main_v17 val_main_v43 val_main_v15 val_main_v44 val_main_v16 val_main_v42 val_main_v14
    val_main_cst_8 val_main_cst_2 val_main_cst_7 val_main_cst_1
  rfl

/-- The second layer's divisor at `(p, k)`: the clamped count of row `p`. -/
theorem den2 (x1 : (⟨S2x800000, .i32⟩ : BufTy).Contents (Elt Ideal)) (p : Fin 50000) (k : Fin 256) :
    val_main_v49 (F := Ideal) x1 (ix2 p k) = max (val_main_v17 (F := Ideal) x1 (ix1 p)) one := by
  rw [val_main_v49_apply, val_main_v48_apply, val_main_v47_apply, val_main_v46_apply, val_main_cst_9_apply, count_eq]
  have e : idx_main_v48 (idx_main_v49 (ix2 p k)) = ix1 p := by idx_rfl1
  rw [e]
  rfl

/-- The second layer's mean at `(p, k)`. -/
theorem mean2 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (p : Fin 50000) (k : Fin 256) :
    val_main_v50 (F := Ideal) x0 x1 x2 x3 x4 (ix2 p k)
      = Ideal.div (val_main_v41 (F := Ideal) x0 x1 x2 x3 x4 (ix2 p k)) (max (val_main_v17 (F := Ideal) x1 (ix1 p)) one) := by
  rw [val_main_v50_apply, den2]
  rfl

/-- The reference's second layer's neighbour sums are those of `H1`. -/
theorem agg2_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) : val_main_v41 (F := Ideal) x0 x1 x2 x3 x4 = agg2 (H1 x0 x1 x2 x3 x4) x1 := by
  unfold val_main_v41 val_main_v38 agg2
  rw [ref_h1]

/-- The reference's second layer is `H2`. -/
theorem ref_h2 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) : val_main_v59 (F := Ideal) x0 x1 x2 x3 x4 x5 x6 x7 = H2 x0 x1 x2 x3 x4 x5 x6 x7 := by
  funext i
  have e1 : ∀ k : Fin 256, lidx_main_v52 i k = ix2 (r0 i) k := fun k => by idx_rfl2
  have e2 : ∀ k : Fin 256, ridx_main_v52 i k = ix2 k (c1 i) := fun k => by idx_rfl2
  have e3 : ∀ k : Fin 256, lidx_main_v57 i k = ix2 (r0 i) k := fun k => by idx_rfl2
  have e4 : ∀ k : Fin 256, ridx_main_v57 i k = ix2 k (c1 i) := fun k => by idx_rfl2
  have e6 : idx_main_v53 (idx_main_v54 i) = ix1 (c1 i) := by idx_rfl1
  rw [val_main_v59_apply, val_main_v58_apply, val_main_v55_apply, val_main_v52_apply, val_main_v57_apply, val_main_v54_apply,
    val_main_v53_apply, val_main_call1_v0_apply, val_main_call1_cst_apply]
  simp only [e1, e2, e3, e4, e6]
  simp only [mean2, agg2_eq, ref_h1]
  unfold H2 inv layerMul
  rw [invCol_apply, biasRow_apply, entryMul_eq_entryDiv _ _ _ _ _ _ _ _ Ideal.ofBits_one_f32 (clamp_ne_zero _)]
  rw [Ideal.maximumf_def, Ideal.addf_def, Ideal.addf_def, Ideal.ofBits_def]
  unfold entryDiv
  rfl

end Cert.RefLayers

end
-- ==== Proof.RefDecode.lean ====
/-
  The reference's decoder output is `Qv`: three dense layers over the second layer's features, the first two rectified.
  Each stage is read at an entry as the row of the stage before against a column of its transposed weights, plus its bias.
-/
import proofs.«127710_j26336739459481_2_alg».proof.Proof.RefLayers
import proofs.«127710_j26336739459481_2_alg».proof.Proof.RefLayer2

noncomputable section

namespace Cert.RefLayers

open Cert.ReferenceIdeal Cert.ReferenceIdeal.Read Cert.Sage Cert.KernelIdeal.Terms
open Idealize.ShloMosaic Idealize.ShloMosaic.ValueIdx

local macro "idx_rfl1" : tactic => `(tactic| (funext a; apply Fin.ext; match a with | ⟨0, _⟩ => rfl))
local macro "idx_rfl2" : tactic => `(tactic| (funext a; apply Fin.ext; match a with | ⟨0, _⟩ => rfl | ⟨1, _⟩ => rfl))

/-- The first dense layer, rectified, at `(p, k2)`. -/
theorem z1_apply (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S128x256, .f32⟩ : BufTy).Contents (Elt Ideal)) (x9 : (⟨S128, .f32⟩ : BufTy).Contents (Elt Ideal)) (p : Fin 50000) (k2 : Fin 128) :
    val_main_v65 (F := Ideal) x0 x1 x2 x3 x4 x5 x6 x7 x8 x9 (ix2 p k2)
      = max (dense (fun k1 : Fin 256 => val_main_v59 (F := Ideal) x0 x1 x2 x3 x4 x5 x6 x7 (ix2 p k1)) (fun k1 => val_main_v60 (F := Ideal) x8 (ix2 k1 k2)) (x9 (ix1 k2))) zf := by
  have l : ∀ k : Fin 256, lidx_main_v61 (ix2 p k2) k = ix2 p k := fun k => by idx_rfl2
  have r : ∀ k : Fin 256, ridx_main_v61 (ix2 p k2) k = ix2 k k2 := fun k => by idx_rfl2
  have b : idx_main_v62 (idx_main_v63 (ix2 p k2)) = ix1 k2 := by idx_rfl1
  rw [val_main_v65_apply, val_main_v64_apply, val_main_v61_apply, val_main_v63_apply, val_main_v62_apply, val_main_call2_v0_apply,
    val_main_call2_cst_apply]
  simp only [l, r, b]
  rw [Ideal.maximumf_def, Ideal.addf_def, Ideal.ofBits_def]
  rfl

/-- The second dense layer, rectified, at `(p, k3)`. -/
theorem z2_apply (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S128x256, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (p : Fin 50000) (k3 : Fin 64) :
    val_main_v71 (F := Ideal) x0 x1 x2 x3 x4 x5 x6 x7 x8 x9 x10 x11 (ix2 p k3)
      = max (dense (fun k2 : Fin 128 => val_main_v65 (F := Ideal) x0 x1 x2 x3 x4 x5 x6 x7 x8 x9 (ix2 p k2)) (fun k2 => val_main_v66 (F := Ideal) x10 (ix2 k2 k3)) (x11 (ix1 k3))) zf := by
  have l : ∀ k : Fin 128, lidx_main_v67 (ix2 p k3) k = ix2 p k := fun k => by idx_rfl2
  have r : ∀ k : Fin 128, ridx_main_v67 (ix2 p k3) k = ix2 k k3 := fun k => by idx_rfl2
  have b : idx_main_v68 (idx_main_v69 (ix2 p k3)) = ix1 k3 := by idx_rfl1
  rw [val_main_v71_apply, val_main_v70_apply, val_main_v67_apply, val_main_v69_apply, val_main_v68_apply, val_main_call3_v0_apply,
    val_main_call3_cst_apply]
  simp only [l, r, b]
  rw [Ideal.maximumf_def, Ideal.addf_def, Ideal.ofBits_def]
  rfl

/-- The third dense layer at an index. -/
theorem q_apply (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S128x256, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S10x64, .f32⟩ : BufTy).Contents (Elt Ideal)) (x13 : (⟨S10, .f32⟩ : BufTy).Contents (Elt Ideal)) (i : S50000x10.Idx) :
    val_main_v76 (F := Ideal) x0 x1 x2 x3 x4 x5 x6 x7 x8 x9 x10 x11 x12 x13 i
      = dense (fun k3 : Fin 64 => val_main_v71 (F := Ideal) x0 x1 x2 x3 x4 x5 x6 x7 x8 x9 x10 x11 (ix2 (r0 i) k3)) (fun k3 => val_main_v72 (F := Ideal) x12 (ix2 k3 (c1 i))) (x13 (ix1 (c1 i))) := by
  have l : ∀ k : Fin 64, lidx_main_v73 i k = ix2 (r0 i) k := fun k => by idx_rfl2
  have r : ∀ k : Fin 64, ridx_main_v73 i k = ix2 k (c1 i) := fun k => by idx_rfl2
  have b : idx_main_v74 (idx_main_v75 i) = ix1 (c1 i) := by idx_rfl1
  rw [val_main_v76_apply, val_main_v73_apply, val_main_v75_apply, val_main_v74_apply]
  simp only [l, r, b]
  rw [Ideal.addf_def]
  rfl

/-- The reference's decoder output is `Qv`. -/
theorem ref_q (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S128x256, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S10x64, .f32⟩ : BufTy).Contents (Elt Ideal)) (x13 : (⟨S10, .f32⟩ : BufTy).Contents (Elt Ideal)) : val_main_v76 (F := Ideal) x0 x1 x2 x3 x4 x5 x6 x7 x8 x9 x10 x11 x12 x13 = Qv x0 x1 x2 x3 x4 x5 x6 x7 x8 x9 x10 x11 x12 x13 := by
  funext i
  rw [q_apply]
  simp only [z2_apply, z1_apply, ref_h2]
  unfold Qv decode
  simp only [biasRow_apply]

end Cert.RefLayers

end
-- ==== Proof.lean ====
/-
  A two-layer mean-aggregating graph network with a three-layer decoder: the two kernels against the reference,
  equal on the extended reals.

  Both programs gather node features along the edges' tails and sum them at the edges' heads (the same host gather and
  scatter-add of the same edge list), count each node's in-edges and clamp the count below by 1.  A layer's entry
  `(r, j)` is then, in the kernel, `max ((Σ_k (agg[r,k] · (1 / c_r)) · Wl[j,k] + Σ_k x[r,k] · Wr[j,k]) + b_j) 0` and, in the
  reference, `max ((Σ_k (agg[r,k] / c_r) · Wl[j,k] + b_j) + Σ_k x[r,k] · Wr[j,k]) 0`.  Since `c_r ≥ 1` it is not zero, so on
  the extended reals `a / c_r = a · c_r⁻¹ = a · (1 / c_r)` for every `a`, infinite ones included, and the two sums differ
  only in the grouping of their additions (`RowLaw.lean`).  The kernels' narrower float formats are the identity here,
  their matrix products into a zero accumulator are plain sums, and the decoder's three dense layers are the same
  expression in both programs.  No step uses that the inputs are finite.

  The kernel side: the first kernel's 25 row blocks make its output array the first layer's features `H1` of the
  arrays it is entered with (`Region0.lean`), the second kernel's make its two outputs the second layer's features
  `H2` and the decoder's output (`Region1.lean`); the host operations around them supply those arrays as the same
  operation terms the reference computes (`HostArrays.lean`).  The reference side: its three results are `H1`, `H2` and
  the decoder of `H2` entry by entry (`RefLayers.lean`, `RefLayer2.lean`, `RefDecode.lean`).
-/
import proofs.«127710_j26336739459481_2_alg».proof.Defs
import proofs.«127710_j26336739459481_2_alg».proof.Proof.Gen.Kernel
import proofs.«127710_j26336739459481_2_alg».proof.Proof.Gen.Kernel.Skeleton
import proofs.«127710_j26336739459481_2_alg».proof.Proof.Gen.Kernel.Points
import proofs.«127710_j26336739459481_2_alg».proof.Proof.KernelFrameP
import proofs.«127710_j26336739459481_2_alg».proof.Proof.Gen.KernelIdeal
import proofs.«127710_j26336739459481_2_alg».proof.Proof.Gen.KernelIdeal.Skeleton
import proofs.«127710_j26336739459481_2_alg».proof.Proof.Gen.KernelIdeal.Points
import proofs.«127710_j26336739459481_2_alg».proof.Proof.KernelIdealFrameP
import proofs.«127710_j26336739459481_2_alg».proof.Proof.Gen.ReferenceIdeal
import proofs.«127710_j26336739459481_2_alg».proof.Proof.Gen.Pre_finite_inputs
import proofs.«127710_j26336739459481_2_alg».proof.Proof.Gen.ReferenceIdeal.Run
import proofs.«127710_j26336739459481_2_alg».proof.Proof.Gen.ReferenceIdeal.Read
import proofs.«127710_j26336739459481_2_alg».proof.Proof.KernelRun
import proofs.«127710_j26336739459481_2_alg».proof.Proof.HostArrays
import proofs.«127710_j26336739459481_2_alg».proof.Proof.RefDecode
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

set_option maxHeartbeats 2000000 in
/-- Both programs end with the decoder's output `Qv` and the second layer's features `H2` of the (agreeing) arguments. -/
theorem algebraic : Cert.algebraic_KernelIdeal_ReferenceIdeal := by
  intro m ρ m' ρ' _ hagree
  refine ⟨fun c => Cert.RefLayers.Qv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.RefLayers.H2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(Cert.KernelIdeal.RunAll.out_q m ρ r h c).trans
          ((Cert.KernelIdeal.Region1.final13 (Cert.KernelIdeal.GenP.V3 m ρ) c).trans (Cert.KernelIdeal.HostArrays.q_eq m ρ c)),
        (Cert.KernelIdeal.RunAll.out_h m ρ r h c).trans
          ((Cert.KernelIdeal.Region1.final12 (Cert.KernelIdeal.GenP.V3 m ρ) c).trans (Cert.KernelIdeal.HostArrays.h2_eq m ρ c)),
        Cert.KernelIdeal.RunAll.kept_arg0 m ρ r h c,
        Cert.KernelIdeal.RunAll.kept_arg1 m ρ r h c,
        Cert.KernelIdeal.RunAll.kept_arg2 m ρ r h c,
        Cert.KernelIdeal.RunAll.kept_arg3 m ρ r h c,
        Cert.KernelIdeal.RunAll.kept_arg4 m ρ r h c,
        Cert.KernelIdeal.RunAll.kept_arg5 m ρ r h c,
        Cert.KernelIdeal.RunAll.kept_arg6 m ρ r h c,
        Cert.KernelIdeal.RunAll.kept_arg7 m ρ r h c,
        Cert.KernelIdeal.RunAll.kept_arg8 m ρ r h c,
        Cert.KernelIdeal.RunAll.kept_arg9 m ρ r h c,
        Cert.KernelIdeal.RunAll.kept_arg10 m ρ r h c,
        Cert.KernelIdeal.RunAll.kept_arg11 m ρ r h c,
        Cert.KernelIdeal.RunAll.kept_arg12 m ρ r h c,
        Cert.KernelIdeal.RunAll.kept_arg13 m ρ r h c⟩)
      (Cert.KernelIdeal.RunAll.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13⟩ := hagree c
      rw [Cert.ReferenceIdeal.Read.val_main_v76_eq, Cert.RefLayers.ref_q, a0, a1, a2, a3, a4, a5, a6, a7, a8, a9, a10, a11, a12, a13]
    · obtain ⟨a0, a1, a2, a3, a4, a5, a6, a7, a8, a9, a10, a11, a12, a13⟩ := hagree c
      rw [Cert.ReferenceIdeal.Read.val_main_v59_eq, Cert.RefLayers.ref_h2, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
